-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S300000x1 : S_.BroadcastsInDim S300000x1 (![] : Fin 0 → Fin S300000x1.rank)
  reducesTo_S300000x1_S_d0_1 : S300000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S300000x1 1) : IVec S_ 1 :=
  let main_c_5 : IVec S_ 1 := constantI S_ 1 1#1
  let main_v17 : IVec S_ 1 := (fun x v => Host.reduce IntOp.andi x v reducesTo_S300000x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : FVec F S20000x256 .f32) (main_arg2 : FVec F S300000x1 .f32) (main_arg3 : FVec F S300000x1 .f32) (main_arg4 : FVec F S256x256 .f32) (main_arg5 : FVec F S256 .f32) (main_arg6 : IVec S300000 32) (main_arg7 : IVec S300000 32) (main_arg8 : IVec S300000 32) (main_arg9 : IVec S300000 32) (main_arg10 : IVec S4096 32) (main_arg11 : IVec S4096 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S300000x1 .f32 := Host.absf main_arg2
  let main_cst_2 : FVec F S_ .f32 := constant S_ .f32 0x7F800000#32
  let main_v10 : FVec F S300000x1 .f32 := broadcastInDim S300000x1 ![] bcast_S_S300000x1 main_cst_2
  let main_v11 : IVec S300000x1 1 := cmpf .olt main_v9 main_v10
  let main_c_3 : IVec S_ 1 := constantI S_ 1 1#1
  let main_v12 : IVec S_ 1 := (fun x v => Host.reduce IntOp.andi x v reducesTo_S300000x1_S_d0_1 h_S_) main_v11 main_c_3
  let main_v13 : IVec S_ 1 := andi main_v8 main_v12
  let main_v14 : FVec F S300000x1 .f32 := Host.absf main_arg3
  let main_cst_4 : FVec F S_ .f32 := constant S_ .f32 0x7F800000#32
  let main_v15 : FVec F S300000x1 .f32 := broadcastInDim S300000x1 ![] bcast_S_S300000x1 main_cst_4
  let main_v16 : IVec S300000x1 1 := cmpf .olt main_v14 main_v15
  fn_part1 (F := F) main_arg4 main_arg5 main_v13 main_v16
-- ==== Kernel.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩
abbrev S300000x256 : Shape := ⟨2, ![300000, 256]⟩
abbrev S4096x1 : Shape := ⟨2, ![4096, 1]⟩
abbrev S4096x256 : Shape := ⟨2, ![4096, 256]⟩
abbrev S8192x256 : Shape := ⟨2, ![8192, 256]⟩
abbrev S1x256 : Shape := ⟨2, ![1, 256]⟩
abbrev S1024x256 : Shape := ⟨2, ![1024, 256]⟩

abbrev nBuf : Space → Nat
  | .hbm => 85
  | .vmem => 8
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S300000x1, .f32⟩
  | .hbm, ⟨3, _⟩ => ⟨S300000x1, .f32⟩
  | .hbm, ⟨4, _⟩ => ⟨S256x256, .f32⟩
  | .hbm, ⟨5, _⟩ => ⟨S256, .f32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S300000x256, .f32⟩
  | .hbm, ⟨21, _⟩ => ⟨S300000x256, .f32⟩
  | .hbm, ⟨22, _⟩ => ⟨S300000x256, .f32⟩
  | .hbm, ⟨23, _⟩ => ⟨S_, .f32⟩
  | .hbm, ⟨24, _⟩ => ⟨S100000x256, .f32⟩
  | .hbm, ⟨25, _⟩ => ⟨S300000x1, .i32⟩
  | .hbm, ⟨26, _⟩ => ⟨S100000x256, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S_, .f32⟩
  | .hbm, ⟨39, _⟩ => ⟨S20000x256, .f32⟩
  | .hbm, ⟨40, _⟩ => ⟨S300000x1, .i32⟩
  | .hbm, ⟨41, _⟩ => ⟨S20000x256, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S4096x256, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S4096x256, .f32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x256, .f32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S4096x1, .i32⟩
  | .hbm, ⟨77, _⟩ => ⟨S4096x256, .f32⟩
  | .hbm, ⟨78, _⟩ => ⟨S8192x256, .f32⟩
  | .hbm, ⟨79, _⟩ => ⟨S8192x256, .f32⟩
  | .hbm, ⟨80, _⟩ => ⟨S256x256, .f32⟩
  | .hbm, ⟨81, _⟩ => ⟨S1x256, .f32⟩
  | .hbm, ⟨82, _⟩ => ⟨S8192x256, .f32⟩
  | .hbm, ⟨83, _⟩ => ⟨S4096x256, .f32⟩
  | .hbm, ⟨84, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S20000x256 : S_.BroadcastsInDim S20000x256 (![] : Fin 0 → Fin S20000x256.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x256_S4096x256_S8192x256_d0 : Shape.Concatenates [S4096x256, S4096x256] S8192x256 0
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S8192x256_S4096x256_0_0 : S8192x256.Slices ![0, 0] S4096x256
  slices_S8192x256_S4096x256_4096_0 : S8192x256.Slices ![4096, 0] S4096x256
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  gather_S100000x256_S4096x1_S4096x256_1_0_n_n_0_1_1256_wf : GatherDims.WF S100000x256 S4096x1 S4096x256 [1] [0] [] [0] [] 1 ![1, 256]
  gather_S20000x256_S4096x1_S4096x256_1_0_n_n_0_1_1256_wf : GatherDims.WF S20000x256 S4096x1 S4096x256 [1] [0] [] [0] [] 1 ![1, 256]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)

variable [Facts₀]

def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v52) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v55) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x256 : Shape := ⟨2, ![100000, 256]⟩
abbrev S20000x256 : Shape := ⟨2, ![20000, 256]⟩
abbrev S300000x1 : Shape := ⟨2, ![300000, 1]⟩
abbrev S256x256 : Shape := ⟨2, ![256, 256]⟩
abbrev S256 : Shape := ⟨1, ![256]⟩
abbrev S300000 : Shape := ⟨1, ![300000]⟩
abbrev S4096 : Shape := ⟨1, ![4096]⟩
abbrev S_ : Shape := ⟨0, ![]⟩
abbrev S300000x256 : Shape := ⟨2, ![300000, 256]⟩
abbrev S1x256 : Shape := ⟨2, ![1, 256]⟩
abbrev S4096x1 : Shape := ⟨2, ![4096, 1]⟩
abbrev S4096x256 : Shape := ⟨2, ![4096, 256]⟩

abbrev nBuf : Space → Nat
  | .hbm => 114
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S20000x256, .f32⟩
  | .hbm, ⟨2, _⟩ => ⟨S300000x1, .f32⟩
  | .hbm, ⟨3, _⟩ => ⟨S300000x1, .f32⟩
  | .hbm, ⟨4, _⟩ => ⟨S256x256, .f32⟩
  | .hbm, ⟨5, _⟩ => ⟨S256, .f32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S300000, .i32⟩
  | .hbm, ⟨14, _⟩ => ⟨S300000, .i1⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S300000, .i32⟩
  | .hbm, ⟨19, _⟩ => ⟨S300000x1, .i32⟩
  | .hbm, ⟨20, _⟩ => ⟨S300000x256, .f32⟩
  | .hbm, ⟨21, _⟩ => ⟨S300000x256, .f32⟩
  | .hbm, ⟨22, _⟩ => ⟨S300000x256, .f32⟩
  | .hbm, ⟨23, _⟩ => ⟨S_, .f32⟩
  | .hbm, ⟨24, _⟩ => ⟨S100000x256, .f32⟩
  | .hbm, ⟨25, _⟩ => ⟨S300000x1, .i32⟩
  | .hbm, ⟨26, _⟩ => ⟨S100000x256, .f32⟩
  | .hbm, ⟨27, _⟩ => ⟨S_, .i32⟩
  | .hbm, ⟨28, _⟩ => ⟨S300000, .i32⟩
  | .hbm, ⟨29, _⟩ => ⟨S300000, .i1⟩
  | .hbm, ⟨30, _⟩ => ⟨S_, .i32⟩
  | .hbm, ⟨31, _⟩ => ⟨S300000, .i32⟩
  | .hbm, ⟨32, _⟩ => ⟨S300000, .i32⟩
  | .hbm, ⟨33, _⟩ => ⟨S300000, .i32⟩
  | .hbm, ⟨34, _⟩ => ⟨S300000x1, .i32⟩
  | .hbm, ⟨35, _⟩ => ⟨S300000x256, .f32⟩
  | .hbm, ⟨36, _⟩ => ⟨S300000x256, .f32⟩
  | .hbm, ⟨37, _⟩ => ⟨S300000x256, .f32⟩
  | .hbm, ⟨38, _⟩ => ⟨S_, .f32⟩
  | .hbm, ⟨39, _⟩ => ⟨S20000x256, .f32⟩
  | .hbm, ⟨40, _⟩ => ⟨S300000x1, .i32⟩
  | .hbm, ⟨41, _⟩ => ⟨S20000x256, .f32⟩
  | .hbm, ⟨42, _⟩ => ⟨S100000x256, .f32⟩
  | .hbm, ⟨43, _⟩ => ⟨S256x256, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .i1⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S100000x256, .f32⟩
  | .hbm, ⟨56, _⟩ => ⟨S256x256, .f32⟩
  | .hbm, ⟨57, _⟩ => ⟨S100000x256, .f32⟩
  | .hbm, ⟨58, _⟩ => ⟨S1x256, .f32⟩
  | .hbm, ⟨59, _⟩ => ⟨S100000x256, .f32⟩
  | .hbm, ⟨60, _⟩ => ⟨S100000x256, .f32⟩
  | .hbm, ⟨61, _⟩ => ⟨S_, .f32⟩
  | .hbm, ⟨62, _⟩ => ⟨S100000x256, .f32⟩
  | .hbm, ⟨63, _⟩ => ⟨S100000x256, .i1⟩
  | .hbm, ⟨64, _⟩ => ⟨S_, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S100000x256, .f32⟩
  | .hbm, ⟨69, _⟩ => ⟨S20000x256, .f32⟩
  | .hbm, ⟨70, _⟩ => ⟨S256x256, .f32⟩
  | .hbm, ⟨71, _⟩ => ⟨S20000x256, .f32⟩
  | .hbm, ⟨72, _⟩ => ⟨S1x256, .f32⟩
  | .hbm, ⟨73, _⟩ => ⟨S20000x256, .f32⟩
  | .hbm, ⟨74, _⟩ => ⟨S20000x256, .f32⟩
  | .hbm, ⟨75, _⟩ => ⟨S_, .f32⟩
  | .hbm, ⟨76, _⟩ => ⟨S20000x256, .f32⟩
  | .hbm, ⟨77, _⟩ => ⟨S20000x256, .i1⟩
  | .hbm, ⟨78, _⟩ => ⟨S_, .f32⟩
  | .hbm, ⟨79, _⟩ => ⟨S20000x256, .f32⟩
  | .hbm, ⟨80, _⟩ => ⟨S20000x256, .f32⟩
  | .hbm, ⟨81, _⟩ => ⟨S20000x256, .f32⟩
  | .hbm, ⟨82, _⟩ => ⟨S20000x256, .f32⟩
  | .hbm, ⟨83, _⟩ => ⟨S256x256, .f32⟩
  | .hbm, ⟨84, _⟩ => ⟨S20000x256, .f32⟩
  | .hbm, ⟨85, _⟩ => ⟨S1x256, .f32⟩
  | .hbm, ⟨86, _⟩ => ⟨S20000x256, .f32⟩
  | .hbm, ⟨87, _⟩ => ⟨S20000x256, .f32⟩
  | .hbm, ⟨88, _⟩ => ⟨S_, .f32⟩
  | .hbm, ⟨89, _⟩ => ⟨S20000x256, .f32⟩
  | .hbm, ⟨90, _⟩ => ⟨S20000x256, .i1⟩
  | .hbm, ⟨91, _⟩ => ⟨S_, .f32⟩
  | .hbm, ⟨92, _⟩ => ⟨S20000x256, .f32⟩
  | .hbm, ⟨93, _⟩ => ⟨S20000x256, .f32⟩
  | .hbm, ⟨94, _⟩ => ⟨S20000x256, .f32⟩
  | .hbm, ⟨95, _⟩ => ⟨S20000x256, .f32⟩
  | .hbm, ⟨96, _⟩ => ⟨S_, .i32⟩
  | .hbm, ⟨97, _⟩ => ⟨S4096, .i32⟩
  | .hbm, ⟨98, _⟩ => ⟨S4096, .i1⟩
  | .hbm, ⟨99, _⟩ => ⟨S_, .i32⟩
  | .hbm, ⟨100, _⟩ => ⟨S4096, .i32⟩
  | .hbm, ⟨101, _⟩ => ⟨S4096, .i32⟩
  | .hbm, ⟨102, _⟩ => ⟨S4096, .i32⟩
  | .hbm, ⟨103, _⟩ => ⟨S4096x1, .i32⟩
  | .hbm, ⟨104, _⟩ => ⟨S4096x256, .f32⟩
  | .hbm, ⟨105, _⟩ => ⟨S_, .i32⟩
  | .hbm, ⟨106, _⟩ => ⟨S4096, .i32⟩
  | .hbm, ⟨107, _⟩ => ⟨S4096, .i1⟩
  | .hbm, ⟨108, _⟩ => ⟨S_, .i32⟩
  | .hbm, ⟨109, _⟩ => ⟨S4096, .i32⟩
  | .hbm, ⟨110, _⟩ => ⟨S4096, .i32⟩
  | .hbm, ⟨111, _⟩ => ⟨S4096, .i32⟩
  | .hbm, ⟨112, _⟩ => ⟨S4096x1, .i32⟩
  | .hbm, ⟨113, _⟩ => ⟨S4096x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_1 : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_v65 : Ref sig .tc := ⟨.hbm, 90, rfl⟩
abbrev main_cst_11 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x256_0_1 : S300000x1.BroadcastsInDim S300000x256 (![0, 1] : Fin 2 → Fin S300000x256.rank)
  bcast_S_S100000x256 : S_.BroadcastsInDim S100000x256 (![] : Fin 0 → Fin S100000x256.rank)
  bcast_S_S20000x256 : S_.BroadcastsInDim S20000x256 (![] : Fin 0 → Fin S20000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1x256_S20000x256_0_1 : S1x256.BroadcastsInDim S20000x256 (![0, 1] : Fin 2 → Fin S20000x256.rank)
  bcast_S_S4096 : S_.BroadcastsInDim S4096 (![] : Fin 0 → Fin S4096.rank)
  bcast_S4096_S4096x1_0 : S4096.BroadcastsInDim S4096x1 (![0] : Fin 1 → Fin S4096x1.rank)
  gather_S20000x256_S300000x1_S300000x256_1_0_n_n_0_1_1256_wf : GatherDims.WF S20000x256 S300000x1 S300000x256 [1] [0] [] [0] [] 1 ![1, 256]
  scatter_S100000x256_S300000x1_S300000x256_1_0_0_1_wf : ScatterDims.WF S100000x256 S300000x1 S300000x256 [1] [0] [0] 1
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  dot_S100000x256_S256x256_S100000x256_1_0_0_1_n_n_wf : DotDims.WF S100000x256 S256x256 S100000x256 [1] [0] [0] [1] [] []
  dot_S20000x256_S256x256_S20000x256_1_0_0_1_n_n_wf : DotDims.WF S20000x256 S256x256 S20000x256 [1] [0] [0] [1] [] []
  gather_S20000x256_S4096x1_S4096x256_1_0_n_n_0_1_1256_wf : GatherDims.WF S20000x256 S4096x1 S4096x256 [1] [0] [] [0] [] 1 ![1, 256]
  gather_S100000x256_S4096x1_S4096x256_1_0_n_n_0_1_1256_wf : GatherDims.WF S100000x256 S4096x1 S4096x256 [1] [0] [] [0] [] 1 ![1, 256]

variable [Facts₀]

def gather_S20000x256_S300000x1_S300000x256_1_0_n_n_0_1_1256 : GatherDims S20000x256 S300000x1 S300000x256 where
  offsetDims := [1]
  collapsedSliceDims := [0]
  operandBatchingDims := []
  startIndicesBatchingDims := []
  startIndexMap := [0]
  indexVectorDim := 1
  sliceSizes := ![1, 256]
  wf := gather_S20000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S4096x1_S4096x256_1_0_n_n_0_1_1256 : GatherDims S20000x256 S4096x1 S4096x256 where
  offsetDims := [1]
  collapsedSliceDims := [0]
  operandBatchingDims := []
  startIndicesBatchingDims := []
  startIndexMap := [0]
  indexVectorDim := 1
  sliceSizes := ![1, 256]
  wf := gather_S20000x256_S4096x1_S4096x256_1_0_n_n_0_1_1256_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf

class Facts : Prop extends Facts₀ where

variable [Facts]
-- ==== Proof.RowCombine.lean ====
/-
  One row of the result, as a function of one row of the node features and one row of the aggregated neighbours.

  Both programs compute, for a row `v` of features and the row `nh` of summed incoming messages of the same node,
      out[c] = leaky (∑ₖ (v k + nh k) · Wᵀ[k, c] + b[c])  +  leaky (∑ₖ (v k · nh k) · Wᵀ[k, c] + b[c]),
  with `leaky z = z` where `z ≥ 0` and `slope · z` elsewhere, the slope the single-precision word nearest 1/100 (the same
  word in both programs, so it is never evaluated). Nothing else of a row's result depends on the rest of the table: this is
  why taking rows out of the table before the computation (one program) or after it (the other) gives the same rows.
  The sums are over the extended reals, where addition is commutative and associative, so their order is immaterial; no
  distributive law is used, hence no finiteness.
-/
import Idealize.ShloMosaic.PureOps.Ideal
import Idealize.ShloMosaic.Lib.ValueIdx

noncomputable section

namespace Cert.RowCombine

open Idealize.ShloMosaic Idealize.ShloMosaic.ValueIdx

/-- The affine map of a row: `∑ₖ x k · Wᵀ[k, c] + b[c]`, the weight given already transposed. -/
def lin (WT : (⟨2, ![256, 256]⟩ : Shape).Idx → EReal) (b : (⟨1, ![256]⟩ : Shape).Idx → EReal) (x : Fin 256 → EReal)
    (c : Fin 256) : EReal :=
  (∑ k : Fin 256, x k * WT (ix2 k c)) + b (ix1 c)

/-- The leaky rectifier: the argument where it is at least zero, the slope times it elsewhere. -/
def leaky (z : EReal) : EReal :=
  Scalar.select (Ideal.cmp .oge z (Ideal.ofBits .f32 0x00000000#32)) z (Ideal.ofBits .f32 0x3C23D70A#32 * z)

/-- Entry `c` of a node's result from its feature row `v` and its neighbour-sum row `nh`. -/
def rowOut (WT : (⟨2, ![256, 256]⟩ : Shape).Idx → EReal) (b : (⟨1, ![256]⟩ : Shape).Idx → EReal) (v nh : Fin 256 → EReal)
    (c : Fin 256) : EReal :=
  leaky (lin WT b (fun k => v k + nh k) c) + leaky (lin WT b (fun k => v k * nh k) c)

end Cert.RowCombine

end
-- ==== Proof.KernelRow.lean ====
/-
  The kernel's body at one element of its block.

  At a grid point the body loads a block of 1024 feature rows `v`, the block of the same 1024 neighbour-sum rows `nh`, the
  whole transposed weight `Wᵀ` and the bias as one row, and stores one block of 1024 result rows. Element `(p, c)` of what
  it stores is the row function of Proof/RowCombine.lean at row `p` of the two loaded blocks: the two matrix products are
  taken into a zero accumulator, so at the extended reals each is the plain sum `∑ₖ x[p, k] · Wᵀ[k, c]`; the narrowing of
  the factors to half precision is the identity there; the bias row repeated down the block reads `b[0, c]`.
-/
import proofs.«164657_j57878979281442_2_alg».proof.Proof.Gen.KernelIdeal.Skeleton
import proofs.«164657_j57878979281442_2_alg».proof.Proof.RowCombine
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.RowCombine

/-- The product's left operand is read along row `p`: its row coordinate is the result's. -/
theorem product_lhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl

/-- The product's right operand is read down column `c`: its column coordinate is the result's. -/
theorem product_rhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- A block product into the zero accumulator, at `(p, c)`: `∑ₖ lhs[p, k] · rhs[k, c]` on the extended reals. -/
theorem product_at (lhs : FVec Ideal S1024x256 .bf16) (rhs : FVec Ideal S256x256 .bf16) (p : Fin 1024) (c : Fin 256) :
    matmul dot_S1024x256_S256x256_S1024x256_1_0_0_1_n_n none lhs rhs (constant S1024x256 .f32 0x00000000#32) (ix2 p c)
      = ∑ k : Fin 256, lhs (ix2 p k) * rhs (ix2 k c) := by
  show FloatOps.matmul dot_S1024x256_S256x256_S1024x256_1_0_0_1_n_n none lhs rhs
      (constant (F := Ideal) S1024x256 .f32 0x00000000#32) (ix2 p c) = _
  rw [Ideal.matmul_constant_zero_apply,
    ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p c)
      ((ValueIdx.contrEquiv1 dot_S1024x256_S256x256_S1024x256_1_0_0_1_n_n 256 rfl rfl).symm k) = ix2 p k :=
    funext fun a => Fin.ext (by
      match a with
      | ⟨0, _⟩ => exact product_lhs_row _ _
      | ⟨1, _⟩ => exact (dot_S1024x256_S256x256_S1024x256_1_0_0_1_n_n.lhsIdx_val_of_single rfl _ _).trans hk)
  have er : dot_S1024x256_S256x256_S1024x256_1_0_0_1_n_n.rhsIdx (ix2 p c)
      ((ValueIdx.contrEquiv1 dot_S1024x256_S256x256_S1024x256_1_0_0_1_n_n 256 rfl rfl).symm k) = ix2 k c :=
    funext fun a => Fin.ext (by
      match a with
      | ⟨0, _⟩ => exact (dot_S1024x256_S256x256_S1024x256_1_0_0_1_n_n.rhsIdx_val_of_single rfl _ _).trans hk
      | ⟨1, _⟩ => exact product_rhs_col _ _)
  rw [el, er]

/-- The bias row of the block read at `[0, c]` as a function of the column alone. -/
abbrev biasOf (x3 : S1x256.Idx → EReal) : (⟨1, ![256]⟩ : Shape).Idx → EReal := fun j => x3 (ix2 (0 : Fin 1) (j 0))

/-- ELEMENT `(p, c)` OF WHAT THE BODY STORES: the row function at row `p` of the loaded feature block and of the loaded
    neighbour-sum block, against the loaded weight and bias. -/
theorem payload_at (x0 x1 : Vec Ideal S1024x256 .f32) (x2 : Vec Ideal S256x256 .f32) (x3 : Vec Ideal S1x256 .f32)
    (p : Fin 1024) (c : Fin 256) :
    k0_pay1 (F := Ideal) x0 x1 x2 x3 (ix2 p c)
      = rowOut x2 (biasOf x3) (fun k => x0 (ix2 p k)) (fun k => x1 (ix2 p k)) c := by
  unfold k0_pay1
  simp only [shapeCast_self]
  simp only [addf_apply, select_apply, cmpf_apply, mulf_apply, broadcast_apply]
  rw [product_at, product_at, broadcastTo_1b_ab_apply]
  simp only [rowOut, leaky, lin, biasOf, truncf_apply, addf_apply, mulf_apply]
  rfl

end Cert.KernelIdeal.BlockValue

end
-- ==== Proof.KernelArray.lean ====
/-
  From the kernel's blocks to its whole result array.

  The grid has 8 points; point `t` stages rows `1024·t … 1024·t + 1023` of the stacked feature table and of the stacked
  neighbour-sum table, the whole transposed weight and the bias row (both at block (0, 0) at every point), and writes back
  rows `1024·t … 1024·t + 1023` of the result. So what point `t` writes back is block `t` of ONE whole-array function,
  `combined`: row `r` of the result is the row function (Proof/RowCombine.lean) of row `r` of the two stacked tables. The 8
  blocks tile the 8192 rows, hence the result array ends holding `combined` of the arrays the region was entered with.
-/
import proofs.«164657_j57878979281442_2_alg».proof.Proof.Gen.KernelIdeal.Frame
import proofs.«164657_j57878979281442_2_alg».proof.Proof.KernelRow
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.BlockValue Idealize.ShloMosaic.ValueIdx Cert.RowCombine

variable (m : (ℓ : Loc nD τ sig) → Buf (Elt Ideal) ℓ) (ρ : Dev nD → PrngReg)

theorem hz : (![0, 0] : Fin 2 → Nat) = fun _ => 0 := funext fun a => by fin_cases a <;> rfl

/-- THE WHOLE RESULT as one function of the stacked feature table `v`, the stacked neighbour-sum table `nh`, the transposed
    weight and the bias row: row by row, the row function. -/
def combined (v nh : S8192x256.Idx → EReal) (wt : S256x256.Idx → EReal) (b2 : S1x256.Idx → EReal) : S8192x256.Idx → EReal :=
  fun i => rowOut wt (biasOf b2) (fun k => v (ix2 (i 0 : Fin 8192) k)) (fun k => nh (ix2 (i 0 : Fin 8192) k)) (i 1 : Fin 256)

/-- `combined` at row `r`, column `cc`. -/
theorem combined_at (v nh : S8192x256.Idx → EReal) (wt : S256x256.Idx → EReal) (b2 : S1x256.Idx → EReal) (r : Fin 8192) (cc : Fin 256) :
    combined v nh wt b2 (ix2 r cc) = rowOut wt (biasOf b2) (fun k => v (ix2 r k)) (fun k => nh (ix2 r k)) cc := rfl

/-- Element `(p, q)` of the buffer the body leaves: its one store covers the block, and the stored value there is the row
    function of the loaded blocks. -/
theorem stored_at (x0 x1 : Vec Ideal S1024x256 .f32) (x2 : Vec Ideal S256x256 .f32) (x3 : Vec Ideal S1x256 .f32)
    (p : Fin 1024) (q : Fin 256) :
    out0_4 (F := Ideal) x0 x1 x2 x3 (ix2 p q)
      = rowOut x2 (biasOf x3) (fun k => x0 (ix2 p k)) (fun k => x1 (ix2 p k)) q := by
  unfold out0_4
  rw [View.canon_unit_zero hz]
  simp only [View.ld_unit_zero (S := S1024x256) hz, View.ld_unit_zero (S := S256x256) hz, View.ld_unit_zero (S := S1x256) hz]
  exact payload_at x0 x1 x2 x3 p q

/-- The same against any tables that agree with the loaded blocks where the element looks: rows of the loaded blocks are rows
    of the tables, the loaded weight is the weight, the loaded bias row is the bias row. -/
theorem stored_eq_combined (x0 x1 : Vec Ideal S1024x256 .f32) (x2 : Vec Ideal S256x256 .f32) (x3 : Vec Ideal S1x256 .f32)
    (v nh : S8192x256.Idx → EReal) (wt : S256x256.Idx → EReal) (b2 : S1x256.Idx → EReal)
    (j : S1024x256.Idx) (i : S8192x256.Idx)
    (h0 : ∀ k : Fin 256, x0 (ix2 (j 0 : Fin 1024) k) = v (ix2 (i 0 : Fin 8192) k))
    (h1 : ∀ k : Fin 256, x1 (ix2 (j 0 : Fin 1024) k) = nh (ix2 (i 0 : Fin 8192) k))
    (h2 : x2 = wt) (h3 : ∀ cc : Fin 256, x3 (ix2 (0 : Fin 1) cc) = b2 (ix2 (0 : Fin 1) cc))
    (hc : (i 1).val = (j 1).val) :
    out0_4 (F := Ideal) x0 x1 x2 x3 j = combined v nh wt b2 i := by
  have hs := stored_at x0 x1 x2 x3 (j 0) (j 1)
  refine (congrArg (out0_4 (F := Ideal) x0 x1 x2 x3) (eq_ix2 j)).trans (hs.trans ?_)
  have eb : biasOf x3 = biasOf b2 := funext fun jj => h3 (jj 0)
  have e1 : (j 1 : Fin 256) = (i 1 : Fin 256) := Fin.ext hc.symm
  have f0 : (fun k : Fin 256 => x0 (ix2 (j 0 : Fin 1024) k)) = fun k => v (ix2 (i 0 : Fin 8192) k) := funext h0
  have f1 : (fun k : Fin 256 => x1 (ix2 (j 0 : Fin 1024) k)) = fun k => nh (ix2 (i 0 : Fin 8192) k) := funext h1
  subst h2
  exact congr (congr (congr (congrArg (rowOut x2) eb) f0) f1) e1

/-- The printed index maps, decided over the 8 grid points: the two row-blocked inputs and the output are at block row `t`,
    the weight and the bias at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

-- The arrays the region is entered with are used as they are named: nothing here depends on how the host operations
-- before the region computed them, so their definition is never opened.
set_option allowUnsafeReducibility true in
attribute [local irreducible] V V0

/-- A row-blocked input's block at point `t`, read at `y`, is the array at row `1024·t + y₀`, column `y₁`: the features'. -/
theorem features_block (c : Dev nD) (t : Fin cfg0.N) (y : S1024x256.Idx) (i : S8192x256.Idx)
    (h0 : (i 0).val = t.val * 1024 + (y 0).val) (h1 : (i 1).val = (y 1).val) :
    iblk m c 0 t y = V m c main_v52 i := by
  obtain ⟨e00, e01, -⟩ := idx_facts t
  show V m c main_v52 (((cfg0.win 0).blk t).view.emb y) = V m c main_v52 i
  refine congrArg _ (funext fun a => Fin.ext ?_)
  match a with
  | ⟨0, _⟩ => show win0_0.index t (0 : Fin 2) * 1024 + 1 * (y 0).val = (i 0).val; rw [e00, h0]; omega
  | ⟨1, _⟩ => show win0_0.index t (1 : Fin 2) * 256 + 1 * (y 1).val = (i 1).val; rw [e01, h1]; omega

/-- The same of the neighbour sums' block. -/
theorem messages_block (c : Dev nD) (t : Fin cfg0.N) (y : S1024x256.Idx) (i : S8192x256.Idx)
    (h0 : (i 0).val = t.val * 1024 + (y 0).val) (h1 : (i 1).val = (y 1).val) :
    iblk m c 1 t y = V m c main_v53 i := by
  obtain ⟨-, -, e10, e11, -⟩ := idx_facts t
  show V m c main_v53 (((cfg0.win 1).blk t).view.emb y) = V m c main_v53 i
  refine congrArg _ (funext fun a => Fin.ext ?_)
  match a with
  | ⟨0, _⟩ => show win0_1.index t (0 : Fin 2) * 1024 + 1 * (y 0).val = (i 0).val; rw [e10, h0]; omega
  | ⟨1, _⟩ => show win0_1.index t (1 : Fin 2) * 256 + 1 * (y 1).val = (i 1).val; rw [e11, h1]; omega

/-- The weight's block at every point is the whole transposed weight. -/
theorem weight_block (c : Dev nD) (t : Fin cfg0.N) (y : S256x256.Idx) : iblk m c 2 t y = V m c main_v54 y := by
  obtain ⟨-, -, -, -, e20, e21, -⟩ := idx_facts t
  show V m c main_v54 (((cfg0.win 2).blk t).view.emb y) = V m c main_v54 y
  refine congrArg _ (funext fun a => Fin.ext ?_)
  match a with
  | ⟨0, _⟩ => show win0_2.index t (0 : Fin 2) * 256 + 1 * (y 0).val = (y 0).val; rw [e20]; omega
  | ⟨1, _⟩ => show win0_2.index t (1 : Fin 2) * 256 + 1 * (y 1).val = (y 1).val; rw [e21]; omega

/-- The bias' block at every point is the whole bias row. -/
theorem bias_block (c : Dev nD) (t : Fin cfg0.N) (y : S1x256.Idx) : iblk m c 3 t y = V m c main_v55 y := by
  obtain ⟨-, -, -, -, -, -, e30, e31, -⟩ := idx_facts t
  show V m c main_v55 (((cfg0.win 3).blk t).view.emb y) = V m c main_v55 y
  refine congrArg _ (funext fun a => Fin.ext ?_)
  match a with
  | ⟨0, _⟩ => show win0_3.index t (0 : Fin 2) * 1 + 1 * (y 0).val = (y 0).val; rw [e30]; omega
  | ⟨1, _⟩ => show win0_3.index t (1 : Fin 2) * 256 + 1 * (y 1).val = (y 1).val; rw [e31]; omega

/-- WHAT POINT `t` WRITES BACK is block `t` of `combined` of the arrays as the region finds them. -/
theorem flushed_eq (c : Dev nD) (t : Fin cfg0.N) :
    (dats m 0 c).flushed 4 t = ((cfg0.win 4).blk t).view.read (Elt Ideal)
      (combined (V m c main_v52 : S8192x256.Idx → EReal) (V m c main_v53 : S8192x256.Idx → EReal)
        (V m c main_v54 : S256x256.Idx → EReal) (V m c main_v55 : S1x256.Idx → EReal)) := by
  show (cfg0.win 4).cut (grid0.coords t) ((dats m 0 c).after 4 t) = _
  rw [after0_4]
  obtain ⟨-, -, -, -, -, -, -, -, e40, e41⟩ := idx_facts t
  funext j
  have r0 : ((((cfg0.win 4).blk t).view.emb j) 0).val = t.val * 1024 + (j 0).val := by
    show win0_4.index t (0 : Fin 2) * 1024 + 1 * (j 0).val = _
    rw [e40]; omega
  have r1 : ((((cfg0.win 4).blk t).view.emb j) 1).val = (j 1).val := by
    show win0_4.index t (1 : Fin 2) * 256 + 1 * (j 1).val = _
    rw [e41]; omega
  exact stored_eq_combined (iblk m c 0 t) (iblk m c 1 t) (iblk m c 2 t) (iblk m c 3 t)
    (V m c main_v52 : S8192x256.Idx → EReal) (V m c main_v53 : S8192x256.Idx → EReal)
    (V m c main_v54 : S256x256.Idx → EReal) (V m c main_v55 : S1x256.Idx → EReal) j (((cfg0.win 4).blk t).view.emb j)
    (fun k => features_block m c t _ _ r0 rfl) (fun k => messages_block m c t _ _ r0 rfl)
    (funext fun y => weight_block m c t y) (fun cc => bias_block m c t _) r1

/-- An index of the result array is in point `t`'s block iff each coordinate is in the block's range on its axis. -/
theorem mem_blk (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v56).slice (win0_4.rect t)).set ↔ _
  rw [View.set_slice_whole, Rect.mem_set_unit]
  exact Iff.rfl

/-- Every index of the result array is in the block of the point its row falls to: point `row / 1024`. -/
theorem covered (i : S8192x256.Idx) :
    ∃ t : Fin cfg0.N, (cfg0.win 4).flush t = true ∧ i ∈ ((cfg0.win 4).blk t).view.set := by
  have hi0 : (i 0).val < 8192 := (i 0).isLt
  have hi1 : (i 1).val < 256 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 1024 ≤ (i 0).val ∧ (i 0).val < win0_4.index t (0 : Fin 2) * 1024 + 1024
    rw [e40, ht]; omega
  | ⟨1, _⟩ =>
    show win0_4.index t (1 : Fin 2) * 256 ≤ (i 1).val ∧ (i 1).val < win0_4.index t (1 : Fin 2) * 256 + 256
    rw [e41]; omega

/-- THE RESULT ARRAY AFTER THE REGION: `combined` of the four arrays the region was entered with. -/
theorem final (c : Dev nD) : (dats m 0 c).arrAt 4 cfg0.N
    = combined (V m c main_v52 : S8192x256.Idx → EReal) (V m c main_v53 : S8192x256.Idx → EReal)
        (V m c main_v54 : S256x256.Idx → EReal) (V m c main_v55 : S1x256.Idx → EReal) :=
  (dats m 0 c).arrAt_eq_of_cover 4 _ (fun t _ => flushed_eq m c t) covered

end Cert.KernelIdeal.ArrayValue

end
-- ==== Proof.KernelHost.lean ====
/-
  The host operations around the kernel's one region.

  BEFORE the region the program aggregates the incoming messages of every node (the two gather · multiply · segment-sum
  chains, kept here as the opaque arrays `nhGrid`, `nhSc` they are printed as), takes the 4096 queried rows of each node type
  out of the features and out of the aggregated messages (a row gather at the query indices, negative indices wrapped
  first), stacks the grid rows on top of the small-category rows, transposes the weight and makes the bias a row. AFTER the
  region it cuts the result into its first 4096 rows (the grid nodes') and its last 4096 (the small-category nodes').
  This module names those terms and shows the region's input arrays and the program's results are they.
-/
import proofs.«164657_j57878979281442_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.HostValue

open Cert.KernelIdeal Cert.KernelIdeal.Gen Idealize.ShloMosaic.StableHlo

/-- The query indices of the grid nodes as a column of row numbers: a negative index wrapped by the table's 100000 rows. -/
def gridIndex (a11 : (⟨S4096, .i32⟩ : BufTy).Contents (Elt Ideal)) : (⟨S4096x1, .i32⟩ : BufTy).Contents (Elt Ideal) :=
  broadcastInDim S4096x1 ![0] bcast_S4096_S4096x1_0
    (select (cmpi .slt a11 (broadcastInDim S4096 ![] bcast_S_S4096 (constantI S_ 32 0#32)))
      (addi a11 (broadcastInDim S4096 ![] bcast_S_S4096 (constantI S_ 32 100000#32))) a11)

/-- The query indices of the small-category nodes as a column of row numbers: a negative index wrapped by 20000. -/
def scIndex (a10 : (⟨S4096, .i32⟩ : BufTy).Contents (Elt Ideal)) : (⟨S4096x1, .i32⟩ : BufTy).Contents (Elt Ideal) :=
  broadcastInDim S4096x1 ![0] bcast_S4096_S4096x1_0
    (select (cmpi .slt a10 (broadcastInDim S4096 ![] bcast_S_S4096 (constantI S_ 32 0#32)))
      (addi a10 (broadcastInDim S4096 ![] bcast_S_S4096 (constantI S_ 32 20000#32))) a10)

/-- The summed incoming messages of every grid node: small-category features gathered along the edges, weighted, and
    segment-summed at the edges' grid ends. -/
def nhGrid (a1 : (⟨S20000x256, .f32⟩ : BufTy).Contents (Elt Ideal)) (a2 : (⟨S300000x1, .f32⟩ : BufTy).Contents (Elt Ideal)) (a6 a7 : (⟨S300000, .i32⟩ : BufTy).Contents (Elt Ideal)) :
    (⟨S100000x256, .f32⟩ : BufTy).Contents (Elt Ideal) :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 a7)
    (mulf (Host.gather gather_S20000x256_S300000x1_S300000x256_1_0_n_n_0_1_1256 a1
        (broadcastInDim S300000x1 ![0] bcast_S300000_S300000x1_0
          (select (cmpi .slt a6 (broadcastInDim S300000 ![] bcast_S_S300000 (constantI S_ 32 0#32)))
            (addi a6 (broadcastInDim S300000 ![] bcast_S_S300000 (constantI S_ 32 20000#32))) a6)))
      (broadcastInDim S300000x256 ![0, 1] bcast_S300000x1_S300000x256_0_1 a2))

/-- The summed incoming messages of every small-category node: the same with the two node types exchanged. -/
def nhSc (a0 : (⟨S100000x256, .f32⟩ : BufTy).Contents (Elt Ideal)) (a3 : (⟨S300000x1, .f32⟩ : BufTy).Contents (Elt Ideal)) (a8 a9 : (⟨S300000, .i32⟩ : BufTy).Contents (Elt Ideal)) :
    (⟨S20000x256, .f32⟩ : BufTy).Contents (Elt Ideal) :=
  Host.scatterAdd scatter_S20000x256_S300000x1_S300000x256_1_0_0_1
    (broadcastInDim S20000x256 ![] bcast_S_S20000x256 (constant (F := Ideal) S_ .f32 0x00000000#32))
    (broadcastInDim S300000x1 ![0] bcast_S300000_S300000x1_0 a9)
    (mulf (Host.gather gather_S100000x256_S300000x1_S300000x256_1_0_n_n_0_1_1256 a0
        (broadcastInDim S300000x1 ![0] bcast_S300000_S300000x1_0
          (select (cmpi .slt a8 (broadcastInDim S300000 ![] bcast_S_S300000 (constantI S_ 32 0#32)))
            (addi a8 (broadcastInDim S300000 ![] bcast_S_S300000 (constantI S_ 32 100000#32))) a8)))
      (broadcastInDim S300000x256 ![0, 1] bcast_S300000x1_S300000x256_0_1 a3))

/-- Two tables of 4096 queried rows stacked: the grid nodes' rows on top, the small-category nodes' below. -/
def stacked (g : (⟨S4096x256, .f32⟩ : BufTy).Contents (Elt Ideal)) (s : (⟨S4096x256, .f32⟩ : BufTy).Contents (Elt Ideal)) : (⟨S8192x256, .f32⟩ : BufTy).Contents (Elt Ideal) :=
  concatenate S8192x256 0 [⟨S4096x256, g⟩, ⟨S4096x256, s⟩] concatenates_S4096x256_S4096x256_S8192x256_d0

variable (m : (ℓ : Loc nD τ sig) → Buf (Elt Ideal) ℓ)

/-- The region's first input: the queried feature rows, stacked. -/
theorem features_eq (c : Dev nD) : (V m c main_v52 : S8192x256.Idx → EReal)
    = stacked (Host.gather gather_S100000x256_S4096x1_S4096x256_1_0_n_n_0_1_1256 (m ((c : Thread nD τ).loc main_arg0)) (gridIndex (m ((c : Thread nD τ).loc main_arg11))))
        (Host.gather gather_S20000x256_S4096x1_S4096x256_1_0_n_n_0_1_1256 (m ((c : Thread nD τ).loc main_arg1)) (scIndex (m ((c : Thread nD τ).loc main_arg10)))) := by
  show StableHlo.after hostOps0 (fun b => m (c, b)) (Proc.devRef .tc main_v52) = _
  after_results_simp <;> rfl

/-- The region's second input: the queried rows of the summed incoming messages, stacked the same way. -/
theorem messages_eq (c : Dev nD) : (V m c main_v53 : S8192x256.Idx → EReal)
    = stacked (Host.gather gather_S100000x256_S4096x1_S4096x256_1_0_n_n_0_1_1256
          (nhGrid (m ((c : Thread nD τ).loc main_arg1)) (m ((c : Thread nD τ).loc main_arg2)) (m ((c : Thread nD τ).loc main_arg6)) (m ((c : Thread nD τ).loc main_arg7))) (gridIndex (m ((c : Thread nD τ).loc main_arg11))))
        (Host.gather gather_S20000x256_S4096x1_S4096x256_1_0_n_n_0_1_1256
          (nhSc (m ((c : Thread nD τ).loc main_arg0)) (m ((c : Thread nD τ).loc main_arg3)) (m ((c : Thread nD τ).loc main_arg8)) (m ((c : Thread nD τ).loc main_arg9))) (scIndex (m ((c : Thread nD τ).loc main_arg10)))) := by
  show StableHlo.after hostOps0 (fun b => m (c, b)) (Proc.devRef .tc main_v53) = _
  after_results_simp <;> rfl

/-- The region's third input: the weight transposed. -/
theorem weight_eq (c : Dev nD) : (V m c main_v54 : S256x256.Idx → EReal)
    = transpose S256x256 [1, 0] (m ((c : Thread nD τ).loc main_arg4)) transposes_S256x256_S256x256_1_0 := by
  show StableHlo.after hostOps0 (fun b => m (c, b)) (Proc.devRef .tc main_v54) = _
  after_results_simp <;> rfl

/-- The region's fourth input: the bias as one row. -/
theorem bias_eq (c : Dev nD) : (V m c main_v55 : S1x256.Idx → EReal)
    = shapeCast S1x256 (m ((c : Thread nD τ).loc main_arg5)) shapeCasts_S256_S1x256 := by
  show StableHlo.after hostOps0 (fun b => m (c, b)) (Proc.devRef .tc main_v55) = _
  after_results_simp <;> rfl

/-- The program's first result: the last 4096 rows of the region's result array. -/
theorem result_sc (c : Dev nD) :
    Pipeline.afterTail₀ cfgs (dats m) 0 (V0 m) [hostOps1] c main_v58
      = extractStridedSlice S4096x256 ![4096, 0] ((dats m 0 c).arrAt 4 cfg0.N : S8192x256.Idx → EReal)
          slices_S8192x256_S4096x256_4096_0 := by
  unfold Pipeline.afterTail₀
  show StableHlo.after hostOps1 _ (Proc.devRef .tc main_v58) = _
  after_results
  rw [Pipeline.withArrays_arr spec0 launch0.win.arr_inj c _ _ 4]

/-- The program's second result: the first 4096 rows of the region's result array. -/
theorem result_grid (c : Dev nD) :
    Pipeline.afterTail₀ cfgs (dats m) 0 (V0 m) [hostOps1] c main_v57
      = extractStridedSlice S4096x256 ![0, 0] ((dats m 0 c).arrAt 4 cfg0.N : S8192x256.Idx → EReal)
          slices_S8192x256_S4096x256_0_0 := by
  unfold Pipeline.afterTail₀
  show StableHlo.after hostOps1 _ (Proc.devRef .tc main_v57) = _
  after_results
  rw [Pipeline.withArrays_arr spec0 launch0.win.arr_inj c _ _ 4]

end Cert.KernelIdeal.HostValue

end
-- ==== Proof.LibRowGather.lean ====
/-
  A row gather read at an index: what `x[idx]` of a table `x : [N, D]` at a column of row numbers `idx : [E, 1]` is, and
  the same of a table with a unit middle axis `x : [N, 1, D]`. Result row `e` is the table's row at the start index
  `idx[e, 0]`, read as a signed integer and clamped into `[0, N − 1]` (every start index of a gather is clamped so that
  the slice fits); the other coordinates pass through. So the two tables, one the other with its unit axis dropped,
  gather the same numbers.
-/
import Idealize.ShloMosaic.Lib.ValueIdx
import Idealize.ShloMosaic.Lib.Pipeline.Value

noncomputable section

namespace Cert.LibRowGather

open Idealize.ShloMosaic Idealize.ShloMosaic.ValueIdx

variable {α : Type}

/-- The dimension numbers of a gather of whole rows of an `[N, D]` table at a column `[E, 1]` of row numbers. -/
abbrev rowsDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index selects: read signed, clamped into the table. -/
abbrev rowOf {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT `(e, k)`: the table at the selected row, column `k`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N D E wf) x idx (ix2 e k) = x (ix2 (rowOf N hN idx e) k) := by
  unfold Host.gather
  refine congrArg x ?_
  funext a
  refine Fin.ext ?_
  match a with
  | ⟨0, _⟩ =>
    show (rowsDims N D E wf).start (ix2 e k) idx 0 + (rowsDims N D E wf).batchCoord (ix2 e k) 0
      + (rowsDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e k) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e k) idx 1 + (rowsDims N D E wf).batchCoord (ix2 e k) 1
      + (rowsDims N D E wf).offCoord (ix2 e k) 1 = k.val
    rw [GatherDims.batchCoord_eq_zero _ _ _ List.not_mem_nil]
    unfold GatherDims.start
    rw [dif_neg (show (1 : Fin 2) ∉ [(0 : Fin 2)] from by decide)]
    simp only [Nat.add_zero, Nat.zero_add]
    unfold GatherDims.offCoord
    rw [dif_pos ((GatherDims.mem_sKept _ _).mpr ⟨(show (1 : Fin 2) ∉ [(0 : Fin 2)] from by decide), List.not_mem_nil⟩)]
    rfl

/-- The dimension numbers of a gather of whole rows of an `[N, 1, D]` table at a column `[E, 1]` of row numbers. -/
abbrev rowsDims3 (N D E : Nat) (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- THE ROW GATHER OF A TABLE WITH A UNIT MIDDLE AXIS READ AT `(e, u, k)`: the table at the selected row, `(0, k)`. -/
theorem gather_rows3_apply {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (u : Fin 1) (k : Fin D) :
    Host.gather (rowsDims3 N D E wf) x idx (ix3 e u k) = x (ix3 (rowOf N hN idx e) (0 : Fin 1) k) := by
  unfold Host.gather
  refine congrArg x ?_
  funext a
  refine Fin.ext ?_
  match a with
  | ⟨0, _⟩ =>
    show (rowsDims3 N D E wf).start (ix3 e u k) idx 0 + (rowsDims3 N D E wf).batchCoord (ix3 e u k) 0
      + (rowsDims3 N D E wf).offCoord (ix3 e u k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowsDims3 N D E wf).startIndexMap from List.mem_singleton.mpr rfl)]
    have hsi : (rowsDims3 N D E wf).siIdx (ix3 e u k) ⟨List.idxOf (0 : Fin 3) (rowsDims3 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims3 N D E wf).start (ix3 e u k) idx 1 + (rowsDims3 N D E wf).batchCoord (ix3 e u k) 1
      + (rowsDims3 N D E wf).offCoord (ix3 e u k) 1 = 0
    rw [GatherDims.batchCoord_eq_zero _ _ _ List.not_mem_nil]
    unfold GatherDims.start
    rw [dif_neg (show (1 : Fin 3) ∉ [(0 : Fin 3)] from by decide)]
    simp only [Nat.add_zero, Nat.zero_add]
    unfold GatherDims.offCoord
    rw [dif_pos ((GatherDims.mem_sKept _ _).mpr ⟨(show (1 : Fin 3) ∉ [(0 : Fin 3)] from by decide), List.not_mem_nil⟩)]
    show u.val = 0
    omega
  | ⟨2, _⟩ =>
    show (rowsDims3 N D E wf).start (ix3 e u k) idx 2 + (rowsDims3 N D E wf).batchCoord (ix3 e u k) 2
      + (rowsDims3 N D E wf).offCoord (ix3 e u k) 2 = k.val
    rw [GatherDims.batchCoord_eq_zero _ _ _ List.not_mem_nil]
    unfold GatherDims.start
    rw [dif_neg (show (2 : Fin 3) ∉ [(0 : Fin 3)] from by decide)]
    simp only [Nat.add_zero, Nat.zero_add]
    unfold GatherDims.offCoord
    rw [dif_pos ((GatherDims.mem_sKept _ _).mpr ⟨(show (2 : Fin 3) ∉ [(0 : Fin 3)] from by decide), List.not_mem_nil⟩)]
    rfl

/-- An `[a, 1, c]` array with its unit middle axis dropped reads, at `(r, d)`, the operand at `(r, 0, d)`: row-major, both
    sit at `r · c + d`. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (d : Fin c) :
    shapeCast ⟨2, ![a, c]⟩ x h (ix2 r d) = x (ix3 r (0 : Fin 1) d) :=
  shapeCast_apply x h _ _ (by
    rw [Shape.rowMajor_val_two, Shape.rowMajor_val_three]
    show (r.val * 1 + 0) * c + d.val = r.val * c + d.val
    rw [Nat.mul_one, Nat.add_zero])

/-- SO THE TWO GATHERS AGREE: rows gathered from the `[N, 1, D]` table, read at `(e, u, k)`, are the rows gathered from the
    table with its unit axis dropped, read at `(e, k)`. -/
theorem gather_rows3_eq_rows {N D E w : Nat} (hN : 0 < N)
    (wf : GatherDims.WF ⟨2, ![N, D]⟩ ⟨2, ![E, 1]⟩ ⟨2, ![E, D]⟩ [1] [0] [] [0] [] 1 ![1, D])
    (wf3 : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (hc : (⟨3, ![N, 1, D]⟩ : Shape).ShapeCasts ⟨2, ![N, D]⟩)
    (idx : IVec ⟨2, ![E, 1]⟩ w) (e : Fin E) (u : Fin 1) (k : Fin D) :
    Host.gather (rowsDims3 N D E wf3) x idx (ix3 e u k)
      = Host.gather (rowsDims N D E wf) (shapeCast ⟨2, ![N, D]⟩ x hc) idx (ix2 e k) := by
  rw [gather_rows3_apply hN, gather_rows_apply hN, shapeCast_a1c_ac_apply]

end Cert.LibRowGather

end
-- ==== Proof.KernelResult.lean ====
/-
  The kernel program's two results, element by element.

  The region's result array holds, row by row, the row function of the stacked query rows (Proof/KernelArray.lean); the
  first result is its last 4096 rows, the second its first 4096. Row `4096 + q` of a stacked table is row `q` of its lower
  part, row `q` its upper part's; and row `q` of a table gathered at a column of row numbers is the table's row at the
  `q`-th number (read signed, clamped into the table). So element `(q, c)` of either result is the row function at the
  QUERIED node's feature row and summed-message row — what the other program computes for every node before it takes the
  queried rows out.
-/
import proofs.«164657_j57878979281442_2_alg».proof.Proof.KernelArray
import proofs.«164657_j57878979281442_2_alg».proof.Proof.KernelHost
import proofs.«164657_j57878979281442_2_alg».proof.Proof.LibRowGather
import Idealize.ShloMosaic.Lib.ValueLayout

noncomputable section

open Idealize.ShloMosaic Idealize.ShloMosaic.TcCoe Idealize.SL.Sem
open Idealize.ShloMosaic.Pipeline (Dat)

namespace Cert.KernelIdeal.ResultValue

open Cert.KernelIdeal Cert.KernelIdeal.Gen Cert.KernelIdeal.ArrayValue Cert.KernelIdeal.HostValue Cert.KernelIdeal.BlockValue
open Idealize.ShloMosaic.ValueIdx Cert.RowCombine Cert.LibRowGather

variable (m : (ℓ : Loc nD τ sig) → Buf (Elt Ideal) ℓ)

set_option allowUnsafeReducibility true in
attribute [local irreducible] V V0

/-- Row `r = q` of two stacked tables is row `q` of the upper one. -/
theorem stacked_upper (g s : S4096x256.Idx → EReal) (q : Fin 4096) (k : Fin 256) (r : Fin 8192) (hr : r.val = q.val) :
    stacked g s (ix2 r k) = g (ix2 q k) := by
  unfold stacked
  exact concatenate_pair_apply_left (0 : Fin 2) g s concatenates_S4096x256_S4096x256_S8192x256_d0 (ix2 r k) rfl (ix2 q k)
    (fun b => by
      match b with
      | ⟨0, _⟩ => exact hr.symm
      | ⟨1, _⟩ => rfl)

/-- Row `r = 4096 + q` of two stacked tables is row `q` of the lower one. -/
theorem stacked_lower (g s : S4096x256.Idx → EReal) (q : Fin 4096) (k : Fin 256) (r : Fin 8192) (hr : r.val = 4096 + q.val) :
    stacked g s (ix2 r k) = s (ix2 q k) := by
  unfold stacked
  exact concatenate_pair_apply_right (0 : Fin 2) g s concatenates_S4096x256_S4096x256_S8192x256_d0 (ix2 r k) rfl rfl (ix2 q k)
    (fun b hb => by
      match b with
      | ⟨0, _⟩ => exact absurd rfl hb
      | ⟨1, _⟩ => rfl)
    (by show q.val + 4096 = r.val; omega)

/-- Rows of a 100000-row table taken at a column of 4096 row numbers: row `q` is the table's row at the `q`-th number. -/
theorem grid_rows_at {α : Type} (x : S100000x256.Idx → α) (idx : IVec S4096x1 32) (q : Fin 4096) (k : Fin 256) :
    Host.gather gather_S100000x256_S4096x1_S4096x256_1_0_n_n_0_1_1256 x idx (ix2 q k)
      = x (ix2 (rowOf 100000 (by decide) idx q) k) :=
  gather_rows_apply (N := 100000) (D := 256) (E := 4096) (by decide) _ x idx q k

/-- The same of a 20000-row table. -/
theorem sc_rows_at {α : Type} (x : S20000x256.Idx → α) (idx : IVec S4096x1 32) (q : Fin 4096) (k : Fin 256) :
    Host.gather gather_S20000x256_S4096x1_S4096x256_1_0_n_n_0_1_1256 x idx (ix2 q k)
      = x (ix2 (rowOf 20000 (by decide) idx q) k) :=
  gather_rows_apply (N := 20000) (D := 256) (E := 4096) (by decide) _ x idx q k

/-- The bias made one row and read back as a function of the column is the bias. -/
theorem bias_row (b : S256.Idx → EReal) : biasOf (shapeCast S1x256 b shapeCasts_S256_S1x256) = b := by
  funext j
  exact (shapeCast_a_1a_apply b shapeCasts_S256_S1x256 (0 : Fin 1) (j 0)).trans (congrArg b (eq_ix1 j).symm)

/-- ELEMENT `(q, cc)` OF THE FIRST RESULT (the small-category nodes'): the row function at the queried node. -/
theorem sc_result_at (c : Dev nD) (q : Fin 4096) (cc : Fin 256) :
    (Pipeline.afterTail₀ cfgs (dats m) 0 (V0 m) [hostOps1] c main_v58 : S4096x256.Idx → EReal) (ix2 q cc)
      = rowOut (transpose S256x256 [1, 0] (m ((c : Thread nD τ).loc main_arg4)) transposes_S256x256_S256x256_1_0) (m ((c : Thread nD τ).loc main_arg5))
          (fun k => (m ((c : Thread nD τ).loc main_arg1)) (ix2 (rowOf 20000 (by decide) (scIndex (m ((c : Thread nD τ).loc main_arg10))) q) k))
          (fun k => nhSc (m ((c : Thread nD τ).loc main_arg0)) (m ((c : Thread nD τ).loc main_arg3)) (m ((c : Thread nD τ).loc main_arg8)) (m ((c : Thread nD τ).loc main_arg9))
            (ix2 (rowOf 20000 (by decide) (scIndex (m ((c : Thread nD τ).loc main_arg10))) q) k)) cc := by
  have hq : q.val < 4096 := q.isLt
  rw [result_sc, final]
  refine (slice2_axis0_apply (n0 := 8192) (n1 := 256) (m := 4096) 4096 _ _ q cc (⟨4096 + q.val, by omega⟩ : Fin 8192) rfl).trans ?_
  rw [combined_at]
  have hW := weight_eq m c
  have hB : biasOf (V m c main_v55 : S1x256.Idx → EReal) = (m ((c : Thread nD τ).loc main_arg5)) := by rw [bias_eq]; exact bias_row _
  have hV : (fun k : Fin 256 => (V m c main_v52 : S8192x256.Idx → EReal) (ix2 (⟨4096 + q.val, by omega⟩ : Fin 8192) k))
      = fun k => (m ((c : Thread nD τ).loc main_arg1)) (ix2 (rowOf 20000 (by decide) (scIndex (m ((c : Thread nD τ).loc main_arg10))) q) k) :=
    funext fun k => by rw [features_eq]; exact (stacked_lower _ _ q k _ rfl).trans (sc_rows_at _ _ q k)
  have hN : (fun k : Fin 256 => (V m c main_v53 : S8192x256.Idx → EReal) (ix2 (⟨4096 + q.val, by omega⟩ : Fin 8192) k))
      = fun k => nhSc (m ((c : Thread nD τ).loc main_arg0)) (m ((c : Thread nD τ).loc main_arg3)) (m ((c : Thread nD τ).loc main_arg8)) (m ((c : Thread nD τ).loc main_arg9))
          (ix2 (rowOf 20000 (by decide) (scIndex (m ((c : Thread nD τ).loc main_arg10))) q) k) :=
    funext fun k => by rw [messages_eq]; exact (stacked_lower _ _ q k _ rfl).trans (sc_rows_at _ _ q k)
  exact congrFun (congr (congr (congr (congrArg rowOut hW) hB) hV) hN) cc

/-- ELEMENT `(q, cc)` OF THE SECOND RESULT (the grid nodes'): the row function at the queried node. -/
theorem grid_result_at (c : Dev nD) (q : Fin 4096) (cc : Fin 256) :
    (Pipeline.afterTail₀ cfgs (dats m) 0 (V0 m) [hostOps1] c main_v57 : S4096x256.Idx → EReal) (ix2 q cc)
      = rowOut (transpose S256x256 [1, 0] (m ((c : Thread nD τ).loc main_arg4)) transposes_S256x256_S256x256_1_0) (m ((c : Thread nD τ).loc main_arg5))
          (fun k => (m ((c : Thread nD τ).loc main_arg0)) (ix2 (rowOf 100000 (by decide) (gridIndex (m ((c : Thread nD τ).loc main_arg11))) q) k))
          (fun k => nhGrid (m ((c : Thread nD τ).loc main_arg1)) (m ((c : Thread nD τ).loc main_arg2)) (m ((c : Thread nD τ).loc main_arg6)) (m ((c : Thread nD τ).loc main_arg7))
            (ix2 (rowOf 100000 (by decide) (gridIndex (m ((c : Thread nD τ).loc main_arg11))) q) k)) cc := by
  have hq : q.val < 4096 := q.isLt
  rw [result_grid, final]
  refine (slice2_axis0_apply (n0 := 8192) (n1 := 256) (m := 4096) 0 _ _ q cc (⟨q.val, by omega⟩ : Fin 8192) (Nat.zero_add _).symm).trans ?_
  rw [combined_at]
  have hW := weight_eq m c
  have hB : biasOf (V m c main_v55 : S1x256.Idx → EReal) = (m ((c : Thread nD τ).loc main_arg5)) := by rw [bias_eq]; exact bias_row _
  have hV : (fun k : Fin 256 => (V m c main_v52 : S8192x256.Idx → EReal) (ix2 (⟨q.val, by omega⟩ : Fin 8192) k))
      = fun k => (m ((c : Thread nD τ).loc main_arg0)) (ix2 (rowOf 100000 (by decide) (gridIndex (m ((c : Thread nD τ).loc main_arg11))) q) k) :=
    funext fun k => by rw [features_eq]; exact (stacked_upper _ _ q k _ rfl).trans (grid_rows_at _ _ q k)
  have hN : (fun k : Fin 256 => (V m c main_v53 : S8192x256.Idx → EReal) (ix2 (⟨q.val, by omega⟩ : Fin 8192) k))
      = fun k => nhGrid (m ((c : Thread nD τ).loc main_arg1)) (m ((c : Thread nD τ).loc main_arg2)) (m ((c : Thread nD τ).loc main_arg6)) (m ((c : Thread nD τ).loc main_arg7))
          (ix2 (rowOf 100000 (by decide) (gridIndex (m ((c : Thread nD τ).loc main_arg11))) q) k) :=
    funext fun k => by rw [messages_eq]; exact (stacked_upper _ _ q k _ rfl).trans (grid_rows_at _ _ q k)
  exact congrFun (congr (congr (congr (congrArg rowOut hW) hB) hV) hN) cc

/-- THE KERNEL PROGRAM'S RUN, READ: every weakly fair execution terminates with the two results at what the two cuts of
    the region's result array hold, and the argument arrays as launched. -/
theorem run_named (ρ : Dev nD → PrngReg) :
    θ_run defs (onTc (τ := τ) (main (F := Ideal))) ⟨m, fun _ => 0, ρ⟩ (fun r => ∀ c : Dev nD,
      r.2.mem ((c.tc : Thread nD τ).loc main_v58) = Pipeline.afterTail₀ cfgs (dats m) 0 (V0 m) [hostOps1] c main_v58
      ∧ r.2.mem ((c.tc : Thread nD τ).loc main_v57) = Pipeline.afterTail₀ cfgs (dats m) 0 (V0 m) [hostOps1] c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v58 (Pipeline.mem_restRefs_of main_v58 (by decide) (by decide)),
      (h c).2 main_v57 (Pipeline.mem_restRefs_of main_v57 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.ResultValue

end
-- ==== Proof.RefRows.lean ====
/-
  The reference's two full tables, row by row.

  The reference computes the result for EVERY node — 100000 grid nodes, 20000 small-category nodes — and takes the queried rows
  out afterwards. Entry `(r, c)` of either table is the row function of Proof/RowCombine.lean at row `r` of the node
  features and row `r` of the summed incoming messages (which stays the opaque aggregation it is printed as), against the
  transposed weight and the bias: the host's contraction is a plain sum at the extended reals, the bias broadcast in two
  steps reads `b[c]`, and the two scalar constants are the zero word and the slope word.
-/
import proofs.«164657_j57878979281442_2_alg».proof.Proof.Gen.ReferenceIdeal.Read
import proofs.«164657_j57878979281442_2_alg».proof.Proof.RowCombine

noncomputable section

namespace Cert.ReferenceIdeal.RowValue

open Cert.ReferenceIdeal Cert.ReferenceIdeal.Gen Cert.ReferenceIdeal.Read Idealize.ShloMosaic Idealize.ShloMosaic.ValueIdx
open Cert.RowCombine

/-- ROW `r` OF THE GRID NODES' TABLE: the row function of the node's features and of its summed incoming messages. -/
theorem grid_row (x0 : (⟨S100000x256, .f32⟩ : BufTy).Contents (Elt Ideal)) (x1 : (⟨S20000x256, .f32⟩ : BufTy).Contents (Elt Ideal)) (x2 : (⟨S300000x1, .f32⟩ : BufTy).Contents (Elt Ideal))
    (x4 : (⟨S256x256, .f32⟩ : BufTy).Contents (Elt Ideal)) (x5 : (⟨S256, .f32⟩ : BufTy).Contents (Elt Ideal)) (x6 x7 : (⟨S300000, .i32⟩ : BufTy).Contents (Elt Ideal)) (r : Fin 100000) (c : Fin 256) :
    val_main_v46 (F := Ideal) x0 x1 x2 x4 x5 x6 x7 (ix2 r c)
      = rowOut (val_main_v25 (F := Ideal) x4) x5 (fun k => x0 (ix2 r k))
          (fun k => val_main_v11 (F := Ideal) x1 x2 x6 x7 (ix2 r k)) c := by
  have hl : ∀ k : Fin 256, lidx_main_v26 (ix2 r c) k = ix2 r k := fun k => funext fun a => Fin.ext (by match a with | ⟨0, _⟩ => rfl | ⟨1, _⟩ => rfl)
  have hr : ∀ k : Fin 256, ridx_main_v26 (ix2 r c) k = ix2 k c := fun k => funext fun a => Fin.ext (by match a with | ⟨0, _⟩ => rfl | ⟨1, _⟩ => rfl)
  have hl' : ∀ k : Fin 256, lidx_main_v37 (ix2 r c) k = ix2 r k := fun k => funext fun a => Fin.ext (by match a with | ⟨0, _⟩ => rfl | ⟨1, _⟩ => rfl)
  have hr' : ∀ k : Fin 256, ridx_main_v37 (ix2 r c) k = ix2 k c := fun k => funext fun a => Fin.ext (by match a with | ⟨0, _⟩ => rfl | ⟨1, _⟩ => rfl)
  have hb : val_main_v28 (F := Ideal) x5 (ix2 r c) = x5 (ix1 c) := by
    rw [val_main_v28_apply, val_main_v27_apply]
    exact congrArg x5 (funext fun a => Fin.ext (by match a with | ⟨0, _⟩ => rfl))
  have hb' : val_main_v39 (F := Ideal) x5 (ix2 r c) = x5 (ix1 c) := by
    rw [val_main_v39_apply, val_main_v38_apply]
    exact congrArg x5 (funext fun a => Fin.ext (by match a with | ⟨0, _⟩ => rfl))
  have hz : val_main_v30 (F := Ideal) (ix2 r c) = Ideal.ofBits .f32 0x00000000#32 := by rw [val_main_v30_apply]; rfl
  have hz' : val_main_v41 (F := Ideal) (ix2 r c) = Ideal.ofBits .f32 0x00000000#32 := by rw [val_main_v41_apply]; rfl
  have hs : val_main_v32 (F := Ideal) (ix2 r c) = Ideal.ofBits .f32 0x3C23D70A#32 := by rw [val_main_v32_apply]; rfl
  have hs' : val_main_v43 (F := Ideal) (ix2 r c) = Ideal.ofBits .f32 0x3C23D70A#32 := by rw [val_main_v43_apply]; rfl
  have et : val_main_v36 (F := Ideal) x4 = val_main_v25 (F := Ideal) x4 := rfl
  rw [val_main_v46_apply, val_main_v34_apply, val_main_v45_apply, val_main_v31_apply, val_main_v33_apply, val_main_v42_apply,
    val_main_v44_apply, val_main_v29_apply, val_main_v40_apply, val_main_v26_apply, val_main_v37_apply, hb, hb', hz, hz', hs, hs', et]
  simp only [hl, hr, hl', hr', val_main_v24_apply, val_main_v35_apply]
  simp only [rowOut, leaky, lin, Ideal.addf_def, Ideal.mulf_def]
  rfl

/-- ROW `r` OF THE SMALL-CATEGORY NODES' TABLE: the same function of that node's features and summed incoming messages. -/
theorem sc_row (x0 : (⟨S100000x256, .f32⟩ : BufTy).Contents (Elt Ideal)) (x1 : (⟨S20000x256, .f32⟩ : BufTy).Contents (Elt Ideal)) (x3 : (⟨S300000x1, .f32⟩ : BufTy).Contents (Elt Ideal))
    (x4 : (⟨S256x256, .f32⟩ : BufTy).Contents (Elt Ideal)) (x5 : (⟨S256, .f32⟩ : BufTy).Contents (Elt Ideal)) (x8 x9 : (⟨S300000, .i32⟩ : BufTy).Contents (Elt Ideal)) (r : Fin 20000) (c : Fin 256) :
    val_main_v69 (F := Ideal) x0 x1 x3 x4 x5 x8 x9 (ix2 r c)
      = rowOut (val_main_v25 (F := Ideal) x4) x5 (fun k => x1 (ix2 r k))
          (fun k => val_main_v23 (F := Ideal) x0 x3 x8 x9 (ix2 r k)) c := by
  have hl : ∀ k : Fin 256, lidx_main_v49 (ix2 r c) k = ix2 r k := fun k => funext fun a => Fin.ext (by match a with | ⟨0, _⟩ => rfl | ⟨1, _⟩ => rfl)
  have hr : ∀ k : Fin 256, ridx_main_v49 (ix2 r c) k = ix2 k c := fun k => funext fun a => Fin.ext (by match a with | ⟨0, _⟩ => rfl | ⟨1, _⟩ => rfl)
  have hl' : ∀ k : Fin 256, lidx_main_v60 (ix2 r c) k = ix2 r k := fun k => funext fun a => Fin.ext (by match a with | ⟨0, _⟩ => rfl | ⟨1, _⟩ => rfl)
  have hr' : ∀ k : Fin 256, ridx_main_v60 (ix2 r c) k = ix2 k c := fun k => funext fun a => Fin.ext (by match a with | ⟨0, _⟩ => rfl | ⟨1, _⟩ => rfl)
  have hb : val_main_v51 (F := Ideal) x5 (ix2 r c) = x5 (ix1 c) := by
    rw [val_main_v51_apply, val_main_v50_apply]
    exact congrArg x5 (funext fun a => Fin.ext (by match a with | ⟨0, _⟩ => rfl))
  have hb' : val_main_v62 (F := Ideal) x5 (ix2 r c) = x5 (ix1 c) := by
    rw [val_main_v62_apply, val_main_v61_apply]
    exact congrArg x5 (funext fun a => Fin.ext (by match a with | ⟨0, _⟩ => rfl))
  have hz : val_main_v53 (F := Ideal) (ix2 r c) = Ideal.ofBits .f32 0x00000000#32 := by rw [val_main_v53_apply]; rfl
  have hz' : val_main_v64 (F := Ideal) (ix2 r c) = Ideal.ofBits .f32 0x00000000#32 := by rw [val_main_v64_apply]; rfl
  have hs : val_main_v55 (F := Ideal) (ix2 r c) = Ideal.ofBits .f32 0x3C23D70A#32 := by rw [val_main_v55_apply]; rfl
  have hs' : val_main_v66 (F := Ideal) (ix2 r c) = Ideal.ofBits .f32 0x3C23D70A#32 := by rw [val_main_v66_apply]; rfl
  have et : val_main_v48 (F := Ideal) x4 = val_main_v25 (F := Ideal) x4 := rfl
  have et' : val_main_v59 (F := Ideal) x4 = val_main_v25 (F := Ideal) x4 := rfl
  rw [val_main_v69_apply, val_main_v57_apply, val_main_v68_apply, val_main_v54_apply, val_main_v56_apply, val_main_v65_apply,
    val_main_v67_apply, val_main_v52_apply, val_main_v63_apply, val_main_v49_apply, val_main_v60_apply, hb, hb', hz, hz', hs, hs', et, et']
  simp only [hl, hr, hl', hr', val_main_v47_apply, val_main_v58_apply]
  simp only [rowOut, leaky, lin, Ideal.addf_def, Ideal.mulf_def]
  rfl

end Cert.ReferenceIdeal.RowValue

end
-- ==== Proof.RefResult.lean ====
/-
  The reference's two results, element by element.

  The reference takes the queried rows out of its two full tables at the end: row `q` of a result is the table's row at the
  `q`-th query index (read signed, clamped into the table), and that row of the table is the row function of that node's
  features and summed incoming messages (Proof/RefRows.lean).
-/
import proofs.«164657_j57878979281442_2_alg».proof.Proof.RefRows
import proofs.«164657_j57878979281442_2_alg».proof.Proof.LibRowGather

noncomputable section

namespace Cert.ReferenceIdeal.ResultValue

open Cert.ReferenceIdeal Cert.ReferenceIdeal.Gen Cert.ReferenceIdeal.Read Cert.ReferenceIdeal.RowValue
open Idealize.ShloMosaic Idealize.ShloMosaic.ValueIdx Cert.RowCombine Cert.LibRowGather

/-- ELEMENT `(q, cc)` OF THE FIRST RESULT (the small-category nodes'): the row function at the queried node. -/
theorem sc_at (x0 : (⟨S100000x256, .f32⟩ : BufTy).Contents (Elt Ideal)) (x1 : (⟨S20000x256, .f32⟩ : BufTy).Contents (Elt Ideal)) (x3 : (⟨S300000x1, .f32⟩ : BufTy).Contents (Elt Ideal))
    (x4 : (⟨S256x256, .f32⟩ : BufTy).Contents (Elt Ideal)) (x5 : (⟨S256, .f32⟩ : BufTy).Contents (Elt Ideal)) (x8 x9 : (⟨S300000, .i32⟩ : BufTy).Contents (Elt Ideal)) (x10 : (⟨S4096, .i32⟩ : BufTy).Contents (Elt Ideal))
    (q : Fin 4096) (cc : Fin 256) :
    val_main_v76 (F := Ideal) x0 x1 x3 x4 x5 x8 x9 x10 (ix2 q cc)
      = rowOut (val_main_v25 (F := Ideal) x4) x5
          (fun k => x1 (ix2 (rowOf 20000 (by decide) (val_main_v75 (F := Ideal) x10) q) k))
          (fun k => val_main_v23 (F := Ideal) x0 x3 x8 x9 (ix2 (rowOf 20000 (by decide) (val_main_v75 (F := Ideal) x10) q) k)) cc := by
  unfold val_main_v76
  exact (gather_rows_apply (N := 20000) (D := 256) (E := 4096) (by decide) _ _ _ q cc).trans
    (sc_row x0 x1 x3 x4 x5 x8 x9 _ cc)

/-- ELEMENT `(q, cc)` OF THE SECOND RESULT (the grid nodes'): the row function at the queried node. -/
theorem grid_at (x0 : (⟨S100000x256, .f32⟩ : BufTy).Contents (Elt Ideal)) (x1 : (⟨S20000x256, .f32⟩ : BufTy).Contents (Elt Ideal)) (x2 : (⟨S300000x1, .f32⟩ : BufTy).Contents (Elt Ideal))
    (x4 : (⟨S256x256, .f32⟩ : BufTy).Contents (Elt Ideal)) (x5 : (⟨S256, .f32⟩ : BufTy).Contents (Elt Ideal)) (x6 x7 : (⟨S300000, .i32⟩ : BufTy).Contents (Elt Ideal)) (x11 : (⟨S4096, .i32⟩ : BufTy).Contents (Elt Ideal))
    (q : Fin 4096) (cc : Fin 256) :
    val_main_v83 (F := Ideal) x0 x1 x2 x4 x5 x6 x7 x11 (ix2 q cc)
      = rowOut (val_main_v25 (F := Ideal) x4) x5
          (fun k => x0 (ix2 (rowOf 100000 (by decide) (val_main_v82 (F := Ideal) x11) q) k))
          (fun k => val_main_v11 (F := Ideal) x1 x2 x6 x7 (ix2 (rowOf 100000 (by decide) (val_main_v82 (F := Ideal) x11) q) k)) cc := by
  unfold val_main_v83
  exact (gather_rows_apply (N := 100000) (D := 256) (E := 4096) (by decide) _ _ _ q cc).trans
    (grid_row x0 x1 x2 x4 x5 x6 x7 _ cc)

end Cert.ReferenceIdeal.ResultValue

end
-- ==== Proof.Claims.lean ====
/-
  The five claims.

  The three frames: the two kernel programs' are their launch-and-body certificates; the reference's is its run with the
  results dropped. The idealization rewrote nothing, so `preserves` has nothing to say. The value claim: at the extended
  reals both programs' results are, element `(q, c)`, the row function (Proof/RowCombine.lean) at the QUERIED node's feature
  row and summed-message row — the kernel program because it takes the queried rows out first and its kernel computes the
  row function block by block (Proof/KernelResult.lean), the reference because it computes the row function for every node
  and takes the queried rows out last (Proof/RefResult.lean). The two programs spell the query indices, the summed
  messages and the transposed weight by the same operations on the same arguments, so the two sides are one term.
-/
import proofs.«164657_j57878979281442_2_alg».proof.Defs
import proofs.«164657_j57878979281442_2_alg».proof.Proof.Gen.Kernel.Frame
import proofs.«164657_j57878979281442_2_alg».proof.Proof.Gen.KernelIdeal.Frame
import proofs.«164657_j57878979281442_2_alg».proof.Proof.Gen.ReferenceIdeal.Run
import proofs.«164657_j57878979281442_2_alg».proof.Proof.Gen.ReferenceIdeal.Read
import proofs.«164657_j57878979281442_2_alg».proof.Proof.Gen.Pre_finite_inputs
import proofs.«164657_j57878979281442_2_alg».proof.Proof.KernelResult
import proofs.«164657_j57878979281442_2_alg».proof.Proof.RefResult

noncomputable section

open Idealize.ShloMosaic Idealize.ShloMosaic.TcCoe Idealize.SL.Sem

namespace Cert.Proof.Claims

open Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Two [4096, 256] arrays that agree at every `(q, c)` are equal. -/
theorem ext_rows {f g : (⟨2, ![4096, 256]⟩ : Shape).Idx → EReal}
    (h : ∀ (q : Fin 4096) (cc : Fin 256), f (ix2 q cc) = g (ix2 q cc)) : f = g :=
  funext fun i => (congrArg f (eq_ix2 i)).trans ((h (i 0) (i 1)).trans (congrArg g (eq_ix2 i)).symm)

theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v58,
    fun c => Pipeline.afterTail₀ Cert.KernelIdeal.cfgs (Cert.KernelIdeal.Gen.dats m) 0 (Cert.KernelIdeal.Gen.V0 m) [Cert.KernelIdeal.Gen.hostOps1] c Cert.KernelIdeal.main_v57,
    Cert.KernelIdeal.ResultValue.run_named m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11⟩ := hagree c
  refine ⟨(h c).1.trans ?_, (h c).2.1.trans ?_, (h c).2.2⟩
  · rw [Cert.ReferenceIdeal.Read.val_main_v76_eq, h0, h1, h3, h4, h5, h8, h9, h10]
    refine ext_rows fun q cc => ?_
    refine (Cert.ReferenceIdeal.ResultValue.sc_at _ _ _ _ _ _ _ _ q cc).trans
      (Eq.trans ?_ (Cert.KernelIdeal.ResultValue.sc_result_at m c q cc).symm)
    rfl
  · rw [Cert.ReferenceIdeal.Read.val_main_v83_eq, h0, h1, h2, h4, h5, h6, h7, h11]
    refine ext_rows fun q cc => ?_
    refine (Cert.ReferenceIdeal.ResultValue.grid_at _ _ _ _ _ _ _ _ q cc).trans
      (Eq.trans ?_ (Cert.KernelIdeal.ResultValue.grid_result_at m c q cc).symm)
    rfl

end Cert.Proof.Claims

end
-- ==== Proof.lean ====
/- The proof of `Cert.Claim` (Defs.lean): a message-passing layer's dense stage — for the queried nodes of two node types, the
   leaky-rectified affine image of (features + summed incoming messages) plus that of (features · summed incoming messages) —
   computed by a kernel on the 8192 queried rows only, against the reference that computes it for all 120000 nodes and takes
   the queried rows out afterwards. The mathematics is in the modules under Proof/: RowCombine (one row of the result as a
   function of one feature row and one message row), KernelRow and KernelArray (the kernel's blocks are that function row by
   row, and tile its result array), KernelHost and KernelResult (the program's results are rows of that array; its inputs
   are rows gathered at the query indices), RefRows and RefResult (the reference's tables are that function row by row, its
   results rows gathered at the same indices), Claims (the two sides are one term; the frames). Assembled here behind the
   witnesses of the programs' stated facts. -/
import proofs.«164657_j57878979281442_2_alg».proof.Defs
import proofs.«164657_j57878979281442_2_alg».proof.Proof.Claims
import proofs.«164657_j57878979281442_2_alg».proof.Proof.Gen.Kernel
import proofs.«164657_j57878979281442_2_alg».proof.Proof.Gen.KernelIdeal
import proofs.«164657_j57878979281442_2_alg».proof.Proof.Gen.ReferenceIdeal
import proofs.«164657_j57878979281442_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
